-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x768 : Shape := ⟨3, ![256, 512, 768]⟩
abbrev S_ : Shape := ⟨0, ![]⟩

class Facts : Prop where
  bcast_S_S256x512x768 : S_.BroadcastsInDim S256x512x768 (![] : Fin 0 → Fin S256x512x768.rank)
  reducesTo_S256x512x768_S_d0_1_2 : S256x512x768.ReducesTo [0, 1, 2] S_
  h_S_ : 0 < S_.numel

variable [Facts]

def fn {F : FTy → Type} [FloatOps F] (main_arg0 : FVec F S256x512x768 .f32) : IVec S_ 1 :=
  let main_v0 : FVec F S256x512x768 .f32 := Host.absf main_arg0
  let main_cst : FVec F S_ .f32 := constant S_ .f32 0x7F800000#32
  let main_v1 : FVec F S256x512x768 .f32 := broadcastInDim S256x512x768 ![] bcast_S_S256x512x768 main_cst
  let main_v2 : IVec S256x512x768 1 := cmpf .olt main_v0 main_v1
  let main_c : IVec S_ 1 := constantI S_ 1 1#1
  let main_v3 : IVec S_ 1 := (fun x v => Host.reduce IntOp.andi x v reducesTo_S256x512x768_S_d0_1_2 h_S_) main_v2 main_c
  main_v3
-- ==== Kernel.lean ====
abbrev S256x512x768 : Shape := ⟨3, ![256, 512, 768]⟩
abbrev S256x768 : Shape := ⟨2, ![256, 768]⟩
abbrev S8x512x768 : Shape := ⟨3, ![8, 512, 768]⟩
abbrev S8x768 : Shape := ⟨2, ![8, 768]⟩

abbrev nBuf : Space → Nat
  | .hbm => 2
  | .vmem => 4
  | .smem => 0
  | _ => 0

abbrev bufTy : (tb : Table) → Fin (tcTables nBuf tb) → BufTy
  | .hbm, ⟨0, _⟩ => ⟨S256x512x768, .f32⟩
  | .hbm, ⟨1, _⟩ => ⟨S256x768, .f32⟩
  | .local _ .vmem, ⟨0, _⟩ => ⟨S8x512x768, .f32⟩
  | .local _ .vmem, ⟨1, _⟩ => ⟨S8x512x768, .f32⟩
  | .local _ .vmem, ⟨2, _⟩ => ⟨S8x768, .f32⟩
  | .local _ .vmem, ⟨3, _⟩ => ⟨S8x768, .f32⟩
  | _, _ => ⟨S256x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8x512x768_S8x512x768_0_0_0 : ∀ a, (![0, 0, 0] : Fin 3 → Nat) a + S8x512x768.size a ≤ S8x512x768.size a
  h_S8x512x768 : 0 < S8x512x768.numel
  reduces_S8x512x768_S8x768 : S8x512x768.Reduces [1] S8x768
  inb_S8x768_S8x768_0_0 : ∀ a, (![0, 0] : Fin 2 → Nat) a + S8x768.size a ≤ S8x768.size a
  h_S8x768 : 0 < S8x768.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x768.size a ≤ S256x512x768.size a
  hwx0_0 : ∀ i : grid0.Coords, EltTy.bits .f32 = 32 ∨ (Rect.block (s := S256x512x768) S8x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x768.size a ≤ S256x768.size a
  hwx0_1 : ∀ i : grid0.Coords, EltTy.bits .f32 = 32 ∨ (Rect.block (s := S256x768) S8x768.size (cc0_transform_1 i) (hinb0_1 i)).WholeWords (EltTy.packing .f32)

variable [Facts₀]

abbrev win0_0 : Pipeline.Window sig grid0 :=
  Pipeline.Window.ofSpec (Memref.whole main_arg0) S8x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x512x768 : Shape := ⟨3, ![256, 512, 768]⟩
abbrev S256x768 : Shape := ⟨2, ![256, 768]⟩
abbrev S8x256x768 : Shape := ⟨3, ![8, 256, 768]⟩
abbrev S8x768 : Shape := ⟨2, ![8, 768]⟩

abbrev nBuf : Space → Nat
  | .hbm => 2
  | .vmem => 5
  | .smem => 0
  | _ => 0

abbrev bufTy : (tb : Table) → Fin (tcTables nBuf tb) → BufTy
  | .hbm, ⟨0, _⟩ => ⟨S256x512x768, .f32⟩
  | .hbm, ⟨1, _⟩ => ⟨S256x768, .f32⟩
  | .local _ .vmem, ⟨0, _⟩ => ⟨S8x256x768, .f32⟩
  | .local _ .vmem, ⟨1, _⟩ => ⟨S8x256x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | _, _ => ⟨S256x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x768_S8x768_0_0 : ∀ a, (![0, 0] : Fin 2 → Nat) a + S8x768.size a ≤ S8x768.size a
  h_S8x768 : 0 < S8x768.numel
  shapeCasts_S8x768_S8x768 : S8x768.ShapeCasts S8x768
  inb_S8x256x768_S8x256x768_0_0_0 : ∀ a, (![0, 0, 0] : Fin 3 → Nat) a + S8x256x768.size a ≤ S8x256x768.size a
  h_S8x256x768 : 0 < S8x256x768.numel
  reduces_S8x256x768_S8x768 : S8x256x768.Reduces [1] S8x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x768.size a ≤ S256x512x768.size a
  hwx0_0 : ∀ i : grid0.Coords, EltTy.bits .f32 = 32 ∨ (Rect.block (s := S256x512x768) S8x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x768.size a ≤ S256x768.size a
  hwx0_1 : ∀ i : grid0.Coords, EltTy.bits .f32 = 32 ∨ (Rect.block (s := S256x768) S8x768.size (cc0_transform_1 i) (hinb0_1 i)).WholeWords (EltTy.packing .f32)

variable [Facts₀]

abbrev win0_0 : Pipeline.Window sig grid0 :=
  Pipeline.Window.ofSpec (Memref.whole main_arg0) S8x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== Proof.MeanSpec.lean ====
/-
  Mean pooling over the sequence axis, on the extended reals.

  For x of shape [256, 512, 768] the pooled array of shape [256, 768] holds, at (b, h),
      (∑ s < 512, x (b, s, h)) · c ,
  where c is the value of the f32 word 0x3B000000 (2⁻⁹ = 1/512; both programs multiply by the same word, so its
  value is never computed here).  Two readings of that array are compared:

    * the sum over the whole axis at once (one lane reduction of a block of 512 rows);
    * a running total started at zero, to which the sum over rows 0 … 255 and then the sum over rows 256 … 511
      are added:  ((0 + ∑ s < 256, x (b, s, h)) + ∑ s < 256, x (b, 256 + s, h)) · c.

  They agree on every extended real: addition of extended reals is a commutative monoid, so a finite sum may be
  cut in two and 0 is neutral; no finiteness of the entries is needed.
-/
import Idealize.ShloMosaic.PureOps.Ideal.Laws
import Idealize.ShloMosaic.Lib.ValueIdx

noncomputable section

open scoped BigOperators

namespace Cert.MeanPool

open Idealize.ShloMosaic Idealize.ShloMosaic.ValueIdx

/-- The scale both programs multiply by: the f32 word of 2⁻⁹, read as an extended real. -/
abbrev scale : EReal := Ideal.ofBits .f32 0x3B000000#32

/-- The pooled value at batch row `b` and feature `h`: the sum over the 512 sequence positions, scaled. -/
def pooledAt (x : (⟨3, ![256, 512, 768]⟩ : Shape).Idx → EReal) (b : Fin 256) (h : Fin 768) : EReal :=
  (∑ s : Fin 512, x (ix3 b s h)) * scale

/-- The pooled array, index by index. -/
def pooled (x : (⟨3, ![256, 512, 768]⟩ : Shape).Idx → EReal) : (⟨2, ![256, 768]⟩ : Shape).Idx → EReal :=
  fun j => pooledAt x (j 0) (j 1)

/-- A sum over 512 positions is the sum over the first 256 plus the sum over the last 256. -/
theorem sum_two_halves (f : Fin 512 → EReal) :
    ∑ s : Fin 512, f s = (∑ s : Fin 256, f ⟨s.val, by omega⟩) + ∑ s : Fin 256, f ⟨256 + s.val, by omega⟩ :=
  Fin.sum_univ_add (M := EReal) (a := 256) (b := 256) f

/-- The running total read: zero, plus the first half's sum, plus the second half's sum, scaled, is the pooled value. -/
theorem two_steps_eq_pooledAt (x : (⟨3, ![256, 512, 768]⟩ : Shape).Idx → EReal) (b : Fin 256) (h : Fin 768) :
    ((0 + ∑ s : Fin 256, x (ix3 b (⟨s.val, by omega⟩ : Fin 512) h))
        + ∑ s : Fin 256, x (ix3 b (⟨256 + s.val, by omega⟩ : Fin 512) h)) * scale = pooledAt x b h := by
  unfold pooledAt
  rw [zero_add, sum_two_halves (fun s => x (ix3 b s h))]

/-! ## A lane reduction over the middle axis, read at an index -/

/-- Summing a [8, 512, 768] block over its middle axis: at (r, l) the sum over `s` of the block at (r, s, l). -/
theorem laneSum512 (P : FVec Ideal ⟨3, ![8, 512, 768]⟩ .f32)
    (hr : Shape.Reduces ⟨3, ![8, 512, 768]⟩ [1] ⟨2, ![8, 768]⟩) (hφ : FKind.Formats .f32)
    (hacc : (0x00000000#32 : BitVec 32) = FKind.add.neutral .f32 hφ) (r : Fin 8) (l : Fin 768) :
    multiReduction .add [1] ⟨2, ![8, 768]⟩ P 0x00000000#32 hr hφ hacc (ix2 r l) = ∑ s : Fin 512, P (ix3 r s l) := by
  refine (Ideal.multiReduction_add_single P 0x00000000#32 hr hφ hacc (ix2 r l)).trans ?_
  refine Finset.sum_congr rfl fun s _ => congrArg P ?_
  funext a
  match a with
  | ⟨0, _⟩ => exact Fin.ext rfl
  | ⟨1, _⟩ => exact Fin.ext rfl
  | ⟨2, _⟩ => exact Fin.ext rfl

/-- Summing a [8, 256, 768] block over its middle axis: at (r, l) the sum over `s` of the block at (r, s, l). -/
theorem laneSum256 (P : FVec Ideal ⟨3, ![8, 256, 768]⟩ .f32)
    (hr : Shape.Reduces ⟨3, ![8, 256, 768]⟩ [1] ⟨2, ![8, 768]⟩) (hφ : FKind.Formats .f32)
    (hacc : (0x00000000#32 : BitVec 32) = FKind.add.neutral .f32 hφ) (r : Fin 8) (l : Fin 768) :
    multiReduction .add [1] ⟨2, ![8, 768]⟩ P 0x00000000#32 hr hφ hacc (ix2 r l) = ∑ s : Fin 256, P (ix3 r s l) := by
  refine (Ideal.multiReduction_add_single P 0x00000000#32 hr hφ hacc (ix2 r l)).trans ?_
  refine Finset.sum_congr rfl fun s _ => congrArg P ?_
  funext a
  match a with
  | ⟨0, _⟩ => exact Fin.ext rfl
  | ⟨1, _⟩ => exact Fin.ext rfl
  | ⟨2, _⟩ => exact Fin.ext rfl

end Cert.MeanPool

end
-- ==== Proof.KernelValue.lean ====
/-
  What the one-pass kernel leaves in its result array, at the ideal instance.

  The grid has 32 points; point `t` fetches the rows 8t … 8t+7 of x (all 512 sequence positions, all 768 features) and
  stores, for each of those 8 rows r and each feature l, the lane sum over the 512 positions times the scale.  So what
  point `t` writes back is block `t` (rows 8t … 8t+7) of the pooled array, the 32 blocks tile the 256 rows, and the
  result array ends holding the pooled array  (b, h) ↦ (∑ s < 512, x (b, s, h)) · c.
-/
import proofs.«160794_g2000707012506507_pallasbulk_396_2_alg».proof.Proof.Gen.KernelIdeal.Value
import proofs.«160794_g2000707012506507_pallasbulk_396_2_alg».proof.Proof.MeanSpec

noncomputable section

open scoped BigOperators

namespace Cert.KernelIdeal.MeanValue

open Cert.KernelIdeal Cert.KernelIdeal.Gen Cert.KernelIdeal.Value Cert.MeanPool
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- What the body leaves in the output block from an input block `x0`: at (r, l) the sum over the 512 positions of
    `x0` at (r, s, l), times the scale. -/
theorem block_value (x0 : Vec Ideal S8x512x768 .f32) (r : Fin 8) (l : Fin 768) :
    out0_1 x0 (ix2 r l) = (∑ s : Fin 512, x0 (ix3 r s l)) * scale := by
  unfold out0_1
  rw [canon1_eq, View.ld_unit_zero (S := S8x512x768) hz3]
  show ((multiReduction (F := Ideal) .add [1] S8x768 x0 0x00000000#32 reduces_S8x512x768_S8x768 (.inl rfl) rfl) (ix1_0 (ix2 r l))) * scale = _
  have e : ix1_0 (ix2 r l) = ix2 r l := by
    funext a
    match a with
    | ⟨0, _⟩ => exact Fin.ext rfl
    | ⟨1, _⟩ => exact Fin.ext rfl
  rw [e]
  exact congrArg (· * scale) (laneSum512 x0 reduces_S8x512x768_S8x768 (.inl rfl) rfl r l)

/-- The printed index maps over the grid: the input block and the output block of point `t` both start at row 8t, and
    at sequence position 0 and feature 0. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- WHAT POINT `t` WRITES BACK is block `t` of the pooled array of x as the region finds it. -/
theorem flushed_eq (c : Dev nD) (t : Fin cfg0.N) :
    (dats m 0 c).flushed 1 t = ((cfg0.win 1).blk t).view.read (Elt Ideal) (pooled (V m c main_arg0)) := by
  rw [flushed1]
  obtain ⟨e0, e1, e2, e3, e4⟩ := idx_facts t
  funext y
  obtain ⟨r, l, rfl⟩ : ∃ (r : Fin 8) (l : Fin 768), y = ix2 r l := ⟨y 0, y 1, eq_ix2 y⟩
  show out0_1 (iblk m c 0 t) (ix2 r l) = pooled (V m c main_arg0) (((cfg0.win 1).blk t).view.emb (ix2 r l))
  rw [block_value]
  unfold pooled pooledAt
  refine congrArg (· * scale) (Finset.sum_congr rfl fun s _ => ?_)
  show V m c main_arg0 (((cfg0.win 0).blk t).view.emb (ix3 r s l)) = V m c main_arg0 _
  refine congrArg (V m c main_arg0) ?_
  funext a
  apply Fin.ext
  have hr : r.val < 8 := r.isLt
  match a with
  | ⟨0, _⟩ => show win0_0.index t (0 : Fin 3) * 8 + 1 * r.val = win0_1.index t (0 : Fin 2) * 8 + 1 * r.val; omega
  | ⟨1, _⟩ => show win0_0.index t (1 : Fin 3) * 512 + 1 * s.val = s.val; omega
  | ⟨2, _⟩ => show win0_0.index t (2 : Fin 3) * 768 + 1 * l.val = win0_1.index t (1 : Fin 2) * 768 + 1 * l.val; omega

/-- An index of the result array is in point `t`'s block iff each coordinate is in the block's range on its axis. -/
theorem mem_blk (t : Fin cfg0.N) (i : S256x768.Idx) :
    i ∈ ((cfg0.win 1).blk t).view.set ↔ ∀ a : Fin 2, win0_1.index t a * S8x768.size a ≤ (i a).val ∧ (i a).val < win0_1.index t a * S8x768.size a + S8x768.size a := by
  show i ∈ ((View.whole main_v0).slice (win0_1.rect t)).set ↔ _
  rw [View.set_slice_whole, Rect.mem_set_unit]
  exact Iff.rfl

/-- Every index of the result array is in the block of the point its row falls in (row / 8). -/
theorem covered (i : S256x768.Idx) :
    ∃ t : Fin cfg0.N, (cfg0.win 1).flush t = true ∧ i ∈ ((cfg0.win 1).blk t).view.set := by
  have hN : cfg0.N = 32 := N_0
  have hi0 : (i 0).val < 256 := (i 0).isLt
  have hi1 : (i 1).val < 768 := (i 1).isLt
  refine ⟨⟨(i 0).val / 8, by omega⟩, flush0_1 _, ?_⟩
  obtain ⟨-, -, -, e3, e4⟩ := idx_facts ⟨(i 0).val / 8, by omega⟩
  rw [mem_blk]
  intro a
  match a with
  | ⟨0, _⟩ =>
    show win0_1.index _ (0 : Fin 2) * 8 ≤ (i 0).val ∧ (i 0).val < win0_1.index _ (0 : Fin 2) * 8 + 8
    rw [e3]; dsimp only; omega
  | ⟨1, _⟩ =>
    show win0_1.index _ (1 : Fin 2) * 768 ≤ (i 1).val ∧ (i 1).val < win0_1.index _ (1 : Fin 2) * 768 + 768
    rw [e4]; omega

/-- THE RESULT ARRAY after the run is the pooled array of x. -/
theorem final (c : Dev nD) : (dats m 0 c).arrAt 1 cfg0.N = pooled (m ((c : Thread nD τ).loc main_arg0)) :=
  (dats m 0 c).arrAt_eq_of_cover 1 (pooled (V m c main_arg0)) (fun t _ => flushed_eq m c t) covered

/-- The run, read: the result array at the pooled array of the argument, the argument unchanged. -/
theorem run : θ_run defs (onTc (τ := τ) (main (F := Ideal))) ⟨m, fun _ => 0, ρ⟩ fun r => ∀ c : Dev nD,
      r.2.mem ((c : Thread nD τ).loc main_v0) = pooled (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.MeanValue

end
-- ==== Proof.RefValue.lean ====
/-
  What the two-pass accumulating kernel leaves in its result array, at the ideal instance.

  Its grid is 32 × 2: point t = 2·b + p handles batch rows 8b … 8b+7 and the half p of the sequence axis (positions
  256p … 256p+255).  A scratch block carries a running total between the two points of a batch block:

    * at p = 0 the scratch is set to zero and the lane sum of the first half is added:   acc₀ = 0 + ∑ s < 256, x (·, s, ·);
    * at p = 1 the lane sum of the second half is added, acc₁ = acc₀ + ∑ s < 256, x (·, 256 + s, ·), and the output
      block is stored as acc₁ · c; only these odd points write the output block back.

  So what an odd point t writes back is block t / 2 (rows 8·(t/2) … 8·(t/2)+7) of the pooled array — the running total
  in two steps is the sum over all 512 positions — the 32 written blocks tile the 256 rows, and the result array ends
  holding the pooled array  (b, h) ↦ (∑ s < 512, x (b, s, h)) · c.
-/
import proofs.«160794_g2000707012506507_pallasbulk_396_2_alg».proof.Proof.Gen.ReferenceIdeal.Value
import proofs.«160794_g2000707012506507_pallasbulk_396_2_alg».proof.Proof.MeanSpec
import Idealize.ShloMosaic.Lib.Tactic

noncomputable section

open scoped BigOperators

namespace Cert.ReferenceIdeal.MeanValue

open Cert.ReferenceIdeal Cert.ReferenceIdeal.Gen Cert.ReferenceIdeal.Value Cert.MeanPool
open Idealize.ShloMosaic Idealize.ShloMosaic.TcCoe Idealize.ShloMosaic.ValueIdx Idealize.SL.Sem Idealize.ShloMosaic.Tactic
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each kind of point leaves, as values of its input block and of the carried scratch -/

section Pieces

variable {F : FTy → Type} [FloatOps F]

/-- A FIRST-HALF point (p = 0) leaves in the scratch the zero block plus the lane sum of its input block: the reset's
    store is read back whole by the load that follows it, and the accumulating store comes last. -/
theorem scratch_first (c : Dev nD) (i : grid0.Coords) (a2 : Memref sig .tc .vmem S8x256x768 .f32) (h2 : a2.IsWhole)
    (a3 : Memref sig .tc .vmem S8x768 .f32) (h3 : a3.IsWhole) (a4 : Memref sig .tc .vmem S8x768 .f32) (h4 : a4.IsWhole)
    (hc0 : cond0_0 i) (hc1 : ¬cond0_1 i) (x0 : Vec F S8x256x768 .f32) :
    sout0_A_0 c i a2 h2 a3 h3 a4 h4 hc0 hc1 x0 = k0_pay2 x0 (k0_pay1 (F := F)) := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S8x768) hz2, View.readCov_unit_zero (S := S8x768) _ hz2]
  simp only [View.readAt_eq_ld, h2.read_unread, View.ld_unit_zero (S := S8x256x768) hz3]

/-- A SECOND-HALF point (p = 1) leaves in the output block the scaled total: the scratch it found plus the lane sum of
    its input block, read back whole after the accumulating store, times the scale. -/
theorem out_second (c : Dev nD) (i : grid0.Coords) (a2 : Memref sig .tc .vmem S8x256x768 .f32) (h2 : a2.IsWhole)
    (a3 : Memref sig .tc .vmem S8x768 .f32) (h3 : a3.IsWhole) (a4 : Memref sig .tc .vmem S8x768 .f32) (h4 : a4.IsWhole)
    (hc0 : ¬cond0_0 i) (hc1 : cond0_1 i) (x0 : Vec F S8x256x768 .f32) (xs0 : Vec F S8x768 .f32) :
    out0_B_1 c i a2 h2 a3 h3 a4 h4 hc0 hc1 x0 xs0 = k0_pay3 (k0_pay2 x0 xs0) := by
  unfold out0_B_1
  rw [View.read_writes_eq_canon _ _ _ (cover0_B_1 c i a2 h2 a3 h3 a4 h4 hc0 hc1 x0 xs0)]
  unfold kernelRun0_B
  dsimp only
  sl_unfold_words
  rw [View.canon_unit_zero hz2, View.readCov_unit_zero (S := S8x768) _ hz2]
  simp only [View.readAt_eq_ld, h2.read_unread, h4.read_unread, View.ld_unit_zero (S := S8x256x768) hz3,
    View.ld_unit_zero (S := S8x768) hz2]

end Pieces

/-! ## The three stored values read at an index, on the extended reals -/

/-- The reset's block is zero everywhere. -/
theorem zero_apply (y : S8x768.Idx) : k0_pay1 (F := Ideal) y = 0 := by
  unfold k0_pay1
  rw [shapeCast_self]
  exact Ideal.ofBits_zero_f32

/-- The accumulating store at (r, l): what the scratch held there plus the sum over the tile's 256 positions. -/
theorem acc_apply (x : Vec Ideal S8x256x768 .f32) (acc : Vec Ideal S8x768 .f32) (r : Fin 8) (l : Fin 768) :
    k0_pay2 x acc (ix2 r l) = acc (ix2 r l) + ∑ s : Fin 256, x (ix3 r s l) := by
  unfold k0_pay2
  rw [shapeCast_self]
  exact congrArg (acc (ix2 r l) + ·) (laneSum256 x reduces_S8x256x768_S8x768 (.inl rfl) rfl r l)

/-- The final store: the total times the scale. -/
theorem scaled_apply (v : Vec Ideal S8x768 .f32) (y : S8x768.Idx) : k0_pay3 v y = v y * scale := rfl

/-- TWO TILES' TOTAL IS THE POOLED VALUE: when tile `xa` holds row `B`'s positions 0 … 255 and tile `xb` its positions
    256 … 511 (at block row `r`, feature `l` ↦ `L`), the scaled running total over both is the pooled value at (B, L). -/
theorem two_tiles_value (X : S256x512x768.Idx → EReal) (xa xb : Vec Ideal S8x256x768 .f32) (B : Fin 256) (L : Fin 768)
    (r : Fin 8) (l : Fin 768)
    (ha : ∀ s : Fin 256, xa (ix3 r s l) = X (ix3 B (⟨s.val, by omega⟩ : Fin 512) L))
    (hb : ∀ s : Fin 256, xb (ix3 r s l) = X (ix3 B (⟨256 + s.val, by omega⟩ : Fin 512) L)) :
    k0_pay3 (k0_pay2 xb (k0_pay2 xa (k0_pay1 (F := Ideal)))) (ix2 r l) = pooledAt X B L := by
  rw [scaled_apply, acc_apply, acc_apply, zero_apply]
  simp only [ha, hb]
  exact two_steps_eq_pooledAt X B L

/-! ## From the points to the array -/

variable (m : (ℓ : Loc nD τ sig) → Buf (Elt Ideal) ℓ) (ρ : Dev nD → PrngReg)

/-- After an even point the scratch holds zero plus that point's lane sum. -/
theorem scratch_even (c : Dev nD) (t : Fin cfg0.N) (h0 : t.val % 2 = 0) (h1 : ¬t.val % 2 = 1) :
    (outsAt0 m c t.val t.isLt).2 = k0_pay2 (iblk m c 0 t) (k0_pay1 (F := Ideal)) := by
  rw [outsAt0_A m c t h0 h1]
  dsimp only
  exact scratch_first (F := Ideal) c (grid0.coords t) (ms0_0 t) (hs0_0 t) (ms0_1 t) (hs0_1 t) scM0_0
    (Memref.isWhole_whole _) ((hcond0_0 t).mpr h0) (fun h => h1 ((hcond0_1 t).mp h)) (iblk m c 0 t)

/-- The printed index maps over the grid: point `n` reads rows from 8·(n/2), positions from 256·(n%2), feature 0 on,
    and its output block starts at row 8·(n/2), feature 0. -/
theorem idx_facts : ∀ t : Fin cfg0.N, win0_0.index t (0 : Fin 3) = t.val / 2 ∧ win0_0.index t (1 : Fin 3) = t.val % 2
    ∧ win0_0.index t (2 : Fin 3) = 0 ∧ win0_1.index t (0 : Fin 2) = t.val / 2 ∧ win0_1.index t (1 : Fin 2) = 0 :=
  (by decide +kernel : ∀ t : Fin grid0.N, _)

/-- WHAT A WRITING POINT `t` (odd) WRITES BACK is block `t` of the pooled array of x as the region finds it. -/
theorem flushed_eq (c : Dev nD) (t : Fin cfg0.N) (hf : (cfg0.win 1).flush t = true) :
    (dats m 0 c).flushed 1 t = ((cfg0.win 1).blk t).view.read (Elt Ideal) (pooled (V m c main_arg0)) := by
  have hN : cfg0.N = 64 := N_0
  have ht : t.val < cfg0.N := t.isLt
  have h1 : t.val % 2 = 1 := (flush0_1 t).mp hf
  have h0 : ¬t.val % 2 = 0 := by omega
  have hlt : t.val - 1 < cfg0.N := Nat.lt_of_le_of_lt (Nat.sub_le _ _) t.isLt
  rw [flushed1_B m c t h0 h1,
    out_second (F := Ideal) c (grid0.coords t) (ms0_0 t) (hs0_0 t) (ms0_1 t) (hs0_1 t) scM0_0 (Memref.isWhole_whole _)
      (fun h => h0 ((hcond0_0 t).mp h)) ((hcond0_1 t).mpr h1) (iblk m c 0 t)
      (outsAt0 m c (t.val - 1) hlt).2,
    scratch_even m c ⟨t.val - 1, hlt⟩ (by dsimp only; omega) (by dsimp only; omega)]
  obtain ⟨e0, e1, e2, e3, e4⟩ := idx_facts t
  obtain ⟨p0, p1, p2, -, -⟩ := idx_facts ⟨t.val - 1, hlt⟩
  dsimp only at p0 p1 p2
  funext y
  obtain ⟨r, l, rfl⟩ : ∃ (r : Fin 8) (l : Fin 768), y = ix2 r l := ⟨y 0, y 1, eq_ix2 y⟩
  have hr : r.val < 8 := r.isLt
  show k0_pay3 (k0_pay2 (iblk m c 0 t) (k0_pay2 (iblk m c 0 ⟨t.val - 1, hlt⟩) (k0_pay1 (F := Ideal)))) (ix2 r l)
    = pooledAt (V m c main_arg0) (((cfg0.win 1).blk t).view.emb (ix2 r l) 0) (((cfg0.win 1).blk t).view.emb (ix2 r l) 1)
  refine two_tiles_value (V m c main_arg0) (iblk m c 0 ⟨t.val - 1, hlt⟩) (iblk m c 0 t)
    (((cfg0.win 1).blk t).view.emb (ix2 r l) 0) (((cfg0.win 1).blk t).view.emb (ix2 r l) 1) r l ?_ ?_
  · intro s
    have hs : s.val < 256 := s.isLt
    show V m c main_arg0 (((cfg0.win 0).blk ⟨t.val - 1, hlt⟩).view.emb (ix3 r s l)) = V m c main_arg0 _
    refine congrArg (V m c main_arg0) ?_
    funext a
    apply Fin.ext
    match a with
    | ⟨0, _⟩ => show win0_0.index ⟨t.val - 1, hlt⟩ (0 : Fin 3) * 8 + 1 * r.val = win0_1.index t (0 : Fin 2) * 8 + 1 * r.val; omega
    | ⟨1, _⟩ => show win0_0.index ⟨t.val - 1, hlt⟩ (1 : Fin 3) * 256 + 1 * s.val = s.val; omega
    | ⟨2, _⟩ => show win0_0.index ⟨t.val - 1, hlt⟩ (2 : Fin 3) * 768 + 1 * l.val = win0_1.index t (1 : Fin 2) * 768 + 1 * l.val; omega
  · intro s
    have hs : s.val < 256 := s.isLt
    show V m c main_arg0 (((cfg0.win 0).blk t).view.emb (ix3 r s l)) = V m c main_arg0 _
    refine congrArg (V m c main_arg0) ?_
    funext a
    apply Fin.ext
    match a with
    | ⟨0, _⟩ => show win0_0.index t (0 : Fin 3) * 8 + 1 * r.val = win0_1.index t (0 : Fin 2) * 8 + 1 * r.val; omega
    | ⟨1, _⟩ => show win0_0.index t (1 : Fin 3) * 256 + 1 * s.val = 256 + s.val; omega
    | ⟨2, _⟩ => show win0_0.index t (2 : Fin 3) * 768 + 1 * l.val = win0_1.index t (1 : Fin 2) * 768 + 1 * l.val; omega

/-- An index of the result array is in point `t`'s block iff each coordinate is in the block's range on its axis. -/
theorem mem_blk (t : Fin cfg0.N) (i : S256x768.Idx) :
    i ∈ ((cfg0.win 1).blk t).view.set ↔ ∀ a : Fin 2, win0_1.index t a * S8x768.size a ≤ (i a).val ∧ (i a).val < win0_1.index t a * S8x768.size a + S8x768.size a := by
  show i ∈ ((View.whole main_v0).slice (win0_1.rect t)).set ↔ _
  rw [View.set_slice_whole, Rect.mem_set_unit]
  exact Iff.rfl

/-- Every index of the result array is in the block of the writing point of its batch block: point 2·(row / 8) + 1. -/
theorem covered (i : S256x768.Idx) :
    ∃ t : Fin cfg0.N, (cfg0.win 1).flush t = true ∧ i ∈ ((cfg0.win 1).blk t).view.set := by
  have hN : cfg0.N = 64 := N_0
  have hi0 : (i 0).val < 256 := (i 0).isLt
  have hi1 : (i 1).val < 768 := (i 1).isLt
  have hb : 2 * ((i 0).val / 8) + 1 < cfg0.N := by omega
  refine ⟨⟨2 * ((i 0).val / 8) + 1, hb⟩, (flush0_1 _).mpr (by dsimp only; omega), ?_⟩
  obtain ⟨-, -, -, e3, e4⟩ := idx_facts ⟨2 * ((i 0).val / 8) + 1, hb⟩
  dsimp only at e3 e4
  rw [mem_blk]
  intro a
  match a with
  | ⟨0, _⟩ =>
    show win0_1.index _ (0 : Fin 2) * 8 ≤ (i 0).val ∧ (i 0).val < win0_1.index _ (0 : Fin 2) * 8 + 8
    rw [e3]; omega
  | ⟨1, _⟩ =>
    show win0_1.index _ (1 : Fin 2) * 768 ≤ (i 1).val ∧ (i 1).val < win0_1.index _ (1 : Fin 2) * 768 + 768
    rw [e4]; omega

/-- THE RESULT ARRAY after the run is the pooled array of x. -/
theorem final (c : Dev nD) : (dats m 0 c).arrAt 1 cfg0.N = pooled (m ((c : Thread nD τ).loc main_arg0)) :=
  (dats m 0 c).arrAt_eq_of_cover 1 (pooled (V m c main_arg0)) (flushed_eq m c) covered

/-- The run, read: the result array at the pooled array of the argument, the argument unchanged. -/
theorem run : θ_run defs (onTc (τ := τ) (main (F := Ideal))) ⟨m, fun _ => 0, ρ⟩ fun r => ∀ c : Dev nD,
      r.2.mem ((c : Thread nD τ).loc main_v0) = pooled (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.ReferenceIdeal.MeanValue

end
-- ==== Proof.lean ====
/-
  Mean pooling over the sequence axis: x of shape [256, 512, 768] ↦ the [256, 768] array (b, h) ↦ (∑ s < 512, x (b, s, h)) · 2⁻⁹.

  The kernel sums all 512 sequence positions of eight batch rows in one lane reduction per grid point (32 points) and
  scales.  The reference walks a 32 × 2 grid: per batch block it zeroes a scratch total, adds the lane sum of positions
  0 … 255, then adds the lane sum of positions 256 … 511 and stores the total times the same scale.

  On the extended reals both result arrays are the pooled array of `Proof/MeanSpec.lean`:
    * the kernel's by reading its one store at an index (`Proof/KernelValue.lean`);
    * the reference's because  (0 + ∑ first half) + ∑ second half  is the sum over the whole axis — addition of extended
      reals is associative with neutral 0, so the finite sum may be cut in two (`Proof/RefValue.lean`).
  Both multiply by the same f32 word (2⁻⁹), so the scale is never evaluated, and no finiteness of x is used: the
  precondition is not opened.  The idealization rewrote nothing, so `preserves` is trivial; the three frames are the
  generated ones.
-/
import proofs.«160794_g2000707012506507_pallasbulk_396_2_alg».proof.Defs
import proofs.«160794_g2000707012506507_pallasbulk_396_2_alg».proof.Proof.Gen.Kernel
import proofs.«160794_g2000707012506507_pallasbulk_396_2_alg».proof.Proof.Gen.Kernel.Frame
import proofs.«160794_g2000707012506507_pallasbulk_396_2_alg».proof.Proof.Gen.KernelIdeal
import proofs.«160794_g2000707012506507_pallasbulk_396_2_alg».proof.Proof.Gen.KernelIdeal.Frame
import proofs.«160794_g2000707012506507_pallasbulk_396_2_alg».proof.Proof.Gen.ReferenceIdeal
import proofs.«160794_g2000707012506507_pallasbulk_396_2_alg».proof.Proof.Gen.ReferenceIdeal.Frame
import proofs.«160794_g2000707012506507_pallasbulk_396_2_alg».proof.Proof.Gen.Pre_finite_inputs
import proofs.«160794_g2000707012506507_pallasbulk_396_2_alg».proof.Proof.KernelValue
import proofs.«160794_g2000707012506507_pallasbulk_396_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation. -/
theorem preserves : Cert.preserves_Kernel_KernelIdeal := trivial

/-- At the ideal instance both result arrays end at the pooled array of the argument, and the arguments agree. -/
theorem algebraic : Cert.algebraic_KernelIdeal_ReferenceIdeal := by
  intro m ρ m' ρ' _ hagree
  refine ⟨_, Cert.KernelIdeal.MeanValue.run m ρ, ?_⟩
  refine (θ_run Cert.ReferenceIdeal.defs _ _).mono (fun _ h c => ⟨(h c).1.trans ?_, (h c).2⟩)
    (Cert.ReferenceIdeal.MeanValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
